-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S1000000 : Shape := ⟨1, ![1000000]⟩
abbrev S5000 : Shape := ⟨1, ![5000]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S5000 : S_.BroadcastsInDim S5000 (![] : Fin 0 → Fin S5000.rank)
  reducesTo_S5000_S_d0 : S5000.ReducesTo [0] S_

variable [Facts]

def fn {F : FTy → Type} [FloatOps F] (main_arg0 : FVec F S4096x20000 .f32) (main_arg1 : FVec F S1000000 .f32) (main_arg2 : FVec F S5000 .f32) (main_arg3 : IVec S1000000 32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S5000 .f32 := Host.absf main_arg2
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  main_v13
-- ==== Kernel.lean ====
abbrev S4096x20000 : Shape := ⟨2, ![4096, 20000]⟩
abbrev S1000000 : Shape := ⟨1, ![1000000]⟩
abbrev S5000 : Shape := ⟨1, ![5000]⟩
abbrev S_ : Shape := ⟨0, ![]⟩
abbrev S100000000 : Shape := ⟨1, ![100000000]⟩
abbrev S1000000x1 : Shape := ⟨2, ![1000000, 1]⟩
abbrev S20000x5000 : Shape := ⟨2, ![20000, 5000]⟩
abbrev S20480x5120 : Shape := ⟨2, ![20480, 5120]⟩
abbrev S5120 : Shape := ⟨1, ![5120]⟩
abbrev S1x5120 : Shape := ⟨2, ![1, 5120]⟩
abbrev S4096x20480 : Shape := ⟨2, ![4096, 20480]⟩
abbrev S4096x5120 : Shape := ⟨2, ![4096, 5120]⟩
abbrev S1024x512 : Shape := ⟨2, ![1024, 512]⟩
abbrev S512x1280 : Shape := ⟨2, ![512, 1280]⟩
abbrev S1x1280 : Shape := ⟨2, ![1, 1280]⟩
abbrev S1024x1280 : Shape := ⟨2, ![1024, 1280]⟩
abbrev S4096x5000 : Shape := ⟨2, ![4096, 5000]⟩

abbrev nBuf : Space → Nat
  | .hbm => 30
  | .vmem => 9
  | .smem => 0
  | _ => 0

abbrev bufTy : (tb : Table) → Fin (tcTables nBuf tb) → BufTy
  | .hbm, ⟨0, _⟩ => ⟨S4096x20000, .f32⟩
  | .hbm, ⟨1, _⟩ => ⟨S1000000, .f32⟩
  | .hbm, ⟨2, _⟩ => ⟨S5000, .f32⟩
  | .hbm, ⟨3, _⟩ => ⟨S1000000, .i32⟩
  | .hbm, ⟨4, _⟩ => ⟨S_, .f32⟩
  | .hbm, ⟨5, _⟩ => ⟨S100000000, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S100000000, .f32⟩
  | .hbm, ⟨15, _⟩ => ⟨S20000x5000, .f32⟩
  | .hbm, ⟨16, _⟩ => ⟨S_, .i32⟩
  | .hbm, ⟨17, _⟩ => ⟨S_, .f32⟩
  | .hbm, ⟨18, _⟩ => ⟨S20480x5120, .f32⟩
  | .hbm, ⟨19, _⟩ => ⟨S_, .i32⟩
  | .hbm, ⟨20, _⟩ => ⟨S_, .f32⟩
  | .hbm, ⟨21, _⟩ => ⟨S5120, .f32⟩
  | .hbm, ⟨22, _⟩ => ⟨S1x5120, .f32⟩
  | .hbm, ⟨23, _⟩ => ⟨S_, .i32⟩
  | .hbm, ⟨24, _⟩ => ⟨S_, .f32⟩
  | .hbm, ⟨25, _⟩ => ⟨S4096x20480, .f32⟩
  | .hbm, ⟨26, _⟩ => ⟨S4096x20480, .bf16⟩
  | .hbm, ⟨27, _⟩ => ⟨S20480x5120, .bf16⟩
  | .hbm, ⟨28, _⟩ => ⟨S4096x5120, .f32⟩
  | .hbm, ⟨29, _⟩ => ⟨S4096x5000, .f32⟩
  | .local _ .vmem, ⟨0, _⟩ => ⟨S1024x512, .bf16⟩
  | .local _ .vmem, ⟨1, _⟩ => ⟨S1024x512, .bf16⟩
  | .local _ .vmem, ⟨2, _⟩ => ⟨S512x1280, .bf16⟩
  | .local _ .vmem, ⟨3, _⟩ => ⟨S512x1280, .bf16⟩
  | .local _ .vmem, ⟨4, _⟩ => ⟨S1x1280, .f32⟩
  | .local _ .vmem, ⟨5, _⟩ => ⟨S1x1280, .f32⟩
  | .local _ .vmem, ⟨6, _⟩ => ⟨S1024x1280, .f32⟩
  | .local _ .vmem, ⟨7, _⟩ => ⟨S1024x1280, .f32⟩
  | .local _ .vmem, ⟨8, _⟩ => ⟨S1024x1280, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call0_v0 : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 40], ![false, false, false]⟩

def k0_cond2 (i : grid0.Coords) : BitVec 1 :=
  let arg2 : BitVec 32 := BitVec.ofNat 32 (i 2).val
  let c39_i32 : BitVec 32 := 39#32
  let v13 : BitVec 1 := Scalar.cmpi .eq arg2 c39_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S100000000 : S_.BroadcastsInDim S100000000 (![] : Fin 0 → Fin S100000000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000000_S20000x5000 : S100000000.ShapeCasts S20000x5000
  pads_S20000x5000_S20480x5120_04800_01200 : S20000x5000.Pads (![0, 0] : Fin 2 → Nat) ![480, 120] ![0, 0] S20480x5120
  h_S_ : 0 < S_.numel
  pads_S5000_S5120_01200 : S5000.Pads (![0] : Fin 1 → Nat) ![120] ![0] S5120
  shapeCasts_S5120_S1x5120 : S5120.ShapeCasts S1x5120
  pads_S4096x20000_S4096x20480_000_04800 : S4096x20000.Pads (![0, 0] : Fin 2 → Nat) ![0, 480] ![0, 0] S4096x20480
  bitsLt_bf16_f32 : FTy.bits .bf16 < FTy.bits .f32
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  slices_S4096x5120_S4096x5000_0_0 : S4096x5120.Slices ![0, 0] S4096x5000
  scatter_S100000000_S1000000x1_S1000000_n_0_0_1_wf : ScatterDims.WF S100000000 S1000000x1 S1000000 [] [0] [0] 1
  dot_S1024x512_S512x1280_S1024x1280_1_0_0_1_n_n_wf : DotDims.WF S1024x512 S512x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x20480.size a
  hwx0_0 : ∀ i : grid0.Coords, EltTy.bits .bf16 = 32 ∨ (Rect.block (s := S4096x20480) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S20480x5120.size a
  hwx0_1 : ∀ i : grid0.Coords, EltTy.bits .bf16 = 32 ∨ (Rect.block (s := S20480x5120) S512x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x5120.size a
  hwx0_2 : ∀ i : grid0.Coords, EltTy.bits .f32 = 32 ∨ (Rect.block (s := S1x5120) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S4096x5120.size a
  hwx0_3 : ∀ i : grid0.Coords, EltTy.bits .f32 = 32 ∨ (Rect.block (s := S4096x5120) S1024x1280.size (cc0_transform_3 i) (hinb0_3 i)).WholeWords (EltTy.packing .f32)

variable [Facts₀]

def scatter_S100000000_S1000000x1_S1000000_n_0_0_1 : ScatterDims S100000000 S1000000x1 S1000000 where
  updateWindowDims := []
  insertedWindowDims := [0]
  scatterDimsToOperandDims := [0]
  indexVectorDim := 1
  wf := scatter_S100000000_S1000000x1_S1000000_n_0_0_1_wf
def dot_S1024x512_S512x1280_S1024x1280_1_0_0_1_n_n : DotDims S1024x512 S512x1280 S1024x1280 where
  lhsContracting := [1]
  rhsContracting := [0]
  lhsNonContracting := [0]
  rhsNonContracting := [1]
  lhsBatch := []
  rhsBatch := []
  wf := dot_S1024x512_S512x1280_S1024x1280_1_0_0_1_n_n_wf

abbrev win0_0 : Pipeline.Window sig grid0 :=
  Pipeline.Window.ofSpec (Memref.whole main_v13) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x20000 : Shape := ⟨2, ![4096, 20000]⟩
abbrev S1000000 : Shape := ⟨1, ![1000000]⟩
abbrev S5000 : Shape := ⟨1, ![5000]⟩
abbrev S_ : Shape := ⟨0, ![]⟩
abbrev S100000000 : Shape := ⟨1, ![100000000]⟩
abbrev S1000000x1 : Shape := ⟨2, ![1000000, 1]⟩
abbrev S20000x5000 : Shape := ⟨2, ![20000, 5000]⟩
abbrev S4096x5000 : Shape := ⟨2, ![4096, 5000]⟩
abbrev S1x5000 : Shape := ⟨2, ![1, 5000]⟩

abbrev nBuf : Space → Nat
  | .hbm => 21
  | .vmem => 0
  | .smem => 0
  | _ => 0

abbrev bufTy : (tb : Table) → Fin (tcTables nBuf tb) → BufTy
  | .hbm, ⟨0, _⟩ => ⟨S4096x20000, .f32⟩
  | .hbm, ⟨1, _⟩ => ⟨S1000000, .f32⟩
  | .hbm, ⟨2, _⟩ => ⟨S5000, .f32⟩
  | .hbm, ⟨3, _⟩ => ⟨S1000000, .i32⟩
  | .hbm, ⟨4, _⟩ => ⟨S_, .f32⟩
  | .hbm, ⟨5, _⟩ => ⟨S100000000, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S100000000, .f32⟩
  | .hbm, ⟨15, _⟩ => ⟨S20000x5000, .f32⟩
  | .hbm, ⟨16, _⟩ => ⟨S4096x5000, .f32⟩
  | .hbm, ⟨17, _⟩ => ⟨S1x5000, .f32⟩
  | .hbm, ⟨18, _⟩ => ⟨S4096x5000, .f32⟩
  | .hbm, ⟨19, _⟩ => ⟨S4096x5000, .f32⟩
  | .hbm, ⟨20, _⟩ => ⟨S4096x5000, .f32⟩
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S100000000 : S_.BroadcastsInDim S100000000 (![] : Fin 0 → Fin S100000000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000000_S20000x5000 : S100000000.ShapeCasts S20000x5000
  bcast_S5000_S1x5000_1 : S5000.BroadcastsInDim S1x5000 (![1] : Fin 1 → Fin S1x5000.rank)
  bcast_S1x5000_S4096x5000_0_1 : S1x5000.BroadcastsInDim S4096x5000 (![0, 1] : Fin 2 → Fin S4096x5000.rank)
  scatter_S100000000_S1000000x1_S1000000_n_0_0_1_wf : ScatterDims.WF S100000000 S1000000x1 S1000000 [] [0] [0] 1
  dot_S4096x20000_S20000x5000_S4096x5000_1_0_0_1_n_n_wf : DotDims.WF S4096x20000 S20000x5000 S4096x5000 [1] [0] [0] [1] [] []

variable [Facts₀]

def scatter_S100000000_S1000000x1_S1000000_n_0_0_1 : ScatterDims S100000000 S1000000x1 S1000000 where
  updateWindowDims := []
  insertedWindowDims := [0]
  scatterDimsToOperandDims := [0]
  indexVectorDim := 1
  wf := scatter_S100000000_S1000000x1_S1000000_n_0_0_1_wf
def dot_S4096x20000_S20000x5000_S4096x5000_1_0_0_1_n_n : DotDims S4096x20000 S20000x5000 S4096x5000 where
  lhsContracting := [1]
  rhsContracting := [0]
  lhsNonContracting := [0]
  rhsNonContracting := [1]
  lhsBatch := []
  rhsBatch := []
  wf := dot_S4096x20000_S20000x5000_S4096x5000_1_0_0_1_n_n_wf

class Facts : Prop extends Facts₀ where

variable [Facts]
-- ==== Proof.Spec.lean ====
/-
  The specification, and the algebra between the two arrangements of its sum.

  Both programs compute, at row r and column u,
      tanh ( (sum over i < 20000 of x[r, i] * K[i, u]) + bias[u] )
  on the extended reals, K being the dense 20000 x 5000 matrix. The reference sums over i in one piece. The
  kernel first pads x, K and bias with zeros (to 20480 columns of x and rows of K, to 5120 columns of K and
  entries of bias) and then sums in 40 consecutive blocks of 512. Two facts join the arrangements, and neither
  needs finiteness, since the extended reals are a commutative monoid under addition and 0 * a = 0 there:

    * reading an array through its zero extension to all pairs of naturals ("at2", "at1") does not see a zero
      padding: the padded array and the original have the same zero extension;
    * a sum of n blocks of b consecutive terms is the sum of the first b * n terms, and terms that vanish from
      some index on can be dropped from the end.
-/
import Idealize.ShloMosaic.PureOps.Ideal
import Idealize.ShloMosaic.Lib.ValueIdx

noncomputable section

namespace Cert.Spec

open Idealize.ShloMosaic Idealize.ShloMosaic.ValueIdx Finset

/-! ## Arrays read at natural coordinates, zero outside -/

/-- Entry (r, c) of an R x C matrix of extended reals; zero when (r, c) lies outside it. -/
def at2 {R C : ℕ} (A : (⟨2, ![R, C]⟩ : Shape).Idx → EReal) (r c : ℕ) : EReal :=
  if h : r < R ∧ c < C then A (ix2 ⟨r, h.1⟩ ⟨c, h.2⟩) else 0

/-- Entry c of a vector of length C; zero when c lies outside it. -/
def at1 {C : ℕ} (A : (⟨1, ![C]⟩ : Shape).Idx → EReal) (c : ℕ) : EReal :=
  if h : c < C then A (ix1 ⟨c, h⟩) else 0

theorem at2_of_lt {R C : ℕ} (A : (⟨2, ![R, C]⟩ : Shape).Idx → EReal) {r c : ℕ} (hr : r < R) (hc : c < C) :
    at2 A r c = A (ix2 ⟨r, hr⟩ ⟨c, hc⟩) := dif_pos ⟨hr, hc⟩

theorem at2_of_row_ge {R C : ℕ} (A : (⟨2, ![R, C]⟩ : Shape).Idx → EReal) {r c : ℕ} (hr : R ≤ r) : at2 A r c = 0 :=
  dif_neg fun h => absurd h.1 (Nat.not_lt.2 hr)

theorem at2_of_col_ge {R C : ℕ} (A : (⟨2, ![R, C]⟩ : Shape).Idx → EReal) {r c : ℕ} (hc : C ≤ c) : at2 A r c = 0 :=
  dif_neg fun h => absurd h.2 (Nat.not_lt.2 hc)

/-- At an index of the matrix the zero extension is the matrix. -/
theorem at2_idx {R C : ℕ} (A : (⟨2, ![R, C]⟩ : Shape).Idx → EReal) (j : (⟨2, ![R, C]⟩ : Shape).Idx) :
    at2 A (j 0).val (j 1).val = A j :=
  (at2_of_lt A (idx2_lt0 j) (idx2_lt1 j)).trans (congrArg A (eq_ix2 j).symm)

theorem at1_of_lt {C : ℕ} (A : (⟨1, ![C]⟩ : Shape).Idx → EReal) {c : ℕ} (hc : c < C) : at1 A c = A (ix1 ⟨c, hc⟩) :=
  dif_pos hc

theorem at1_of_ge {C : ℕ} (A : (⟨1, ![C]⟩ : Shape).Idx → EReal) {c : ℕ} (hc : C ≤ c) : at1 A c = 0 :=
  dif_neg (Nat.not_lt.2 hc)

/-! ## Sums in blocks -/

/-- n blocks of b consecutive terms are the first b * n terms. -/
theorem sum_blocks {M : Type*} [AddCommMonoid M] (f : ℕ → M) (b : ℕ) :
    ∀ n : ℕ, ∑ kk ∈ range n, ∑ l ∈ range b, f (b * kk + l) = ∑ k ∈ range (b * n), f k
  | 0 => by simp
  | n + 1 => by rw [sum_range_succ, sum_blocks f b n, Nat.mul_succ, sum_range_add]

/-- Terms that vanish from index n on can be dropped from the end of a sum. -/
theorem sum_drop_zero_tail {M : Type*} [AddCommMonoid M] (f : ℕ → M) (n p : ℕ) (h : ∀ k, n ≤ k → f k = 0) :
    ∑ k ∈ range (n + p), f k = ∑ k ∈ range n, f k := by
  rw [sum_range_add, sum_eq_zero (fun k _ => h (n + k) (Nat.le_add_right n k)), add_zero]

/-! ## The two arrangements -/

/-- The kernel's accumulator after n blocks of 512, at row r and column c of the padded arrays. -/
def acc {R Ck Cn : ℕ} (X : (⟨2, ![R, Ck]⟩ : Shape).Idx → EReal) (K : (⟨2, ![Ck, Cn]⟩ : Shape).Idx → EReal)
    (r c n : ℕ) : EReal :=
  ∑ kk ∈ range n, ∑ l ∈ range 512, at2 X r (512 * kk + l) * at2 K (512 * kk + l) c

theorem acc_succ {R Ck Cn : ℕ} (X : (⟨2, ![R, Ck]⟩ : Shape).Idx → EReal) (K : (⟨2, ![Ck, Cn]⟩ : Shape).Idx → EReal)
    (r c n : ℕ) :
    acc X K r c (n + 1) = acc X K r c n + ∑ l ∈ range 512, at2 X r (512 * n + l) * at2 K (512 * n + l) c :=
  sum_range_succ _ n

theorem acc_one {R Ck Cn : ℕ} (X : (⟨2, ![R, Ck]⟩ : Shape).Idx → EReal) (K : (⟨2, ![Ck, Cn]⟩ : Shape).Idx → EReal)
    (r c : ℕ) :
    acc X K r c 1 = ∑ l ∈ range 512, at2 X r (512 * 0 + l) * at2 K (512 * 0 + l) c := by
  unfold acc; rw [sum_range_one]

/-- What the kernel leaves at row r, column c: tanh of the 40-block accumulator plus the bias row's entry. -/
def blockwise {R Ck Cn : ℕ} (X : (⟨2, ![R, Ck]⟩ : Shape).Idx → EReal) (K : (⟨2, ![Ck, Cn]⟩ : Shape).Idx → EReal)
    (B : (⟨2, ![1, Cn]⟩ : Shape).Idx → EReal) (r c : ℕ) : EReal :=
  Ideal.tanh (acc X K r c 40 + at2 B 0 c)

/-- The result: tanh (x K + bias), the product's sum in one piece. -/
def result (x : (⟨2, ![4096, 20000]⟩ : Shape).Idx → EReal) (K : (⟨2, ![20000, 5000]⟩ : Shape).Idx → EReal)
    (b : (⟨1, ![5000]⟩ : Shape).Idx → EReal) : (⟨2, ![4096, 5000]⟩ : Shape).Idx → EReal :=
  fun i => Ideal.tanh ((∑ k : Fin 20000, x (ix2 (i 0) k) * K (ix2 k (i 1))) + b (ix1 (i 1)))

/-- The blockwise arrangement over arrays whose zero extensions are those of x, K and bias is the result. -/
theorem blockwise_eq_result {R Ck Cn : ℕ} (X : (⟨2, ![R, Ck]⟩ : Shape).Idx → EReal)
    (Kp : (⟨2, ![Ck, Cn]⟩ : Shape).Idx → EReal) (B : (⟨2, ![1, Cn]⟩ : Shape).Idx → EReal)
    (x : (⟨2, ![4096, 20000]⟩ : Shape).Idx → EReal) (K : (⟨2, ![20000, 5000]⟩ : Shape).Idx → EReal)
    (b : (⟨1, ![5000]⟩ : Shape).Idx → EReal)
    (hX : ∀ r k, at2 X r k = at2 x r k) (hK : ∀ k c, at2 Kp k c = at2 K k c) (hB : ∀ c, at2 B 0 c = at1 b c)
    (i : (⟨2, ![4096, 5000]⟩ : Shape).Idx) :
    blockwise X Kp B (i 0).val (i 1).val = result x K b i := by
  have h0 : (i 0).val < 4096 := idx2_lt0 i
  have h1 : (i 1).val < 5000 := idx2_lt1 i
  unfold blockwise result acc
  rw [sum_blocks (fun k => at2 X (i 0).val k * at2 Kp k (i 1).val) 512 40]
  rw [show 512 * 40 = 20000 + 480 from by norm_num,
    sum_drop_zero_tail _ 20000 480 (fun k hk => by rw [hX, at2_of_col_ge x hk, zero_mul])]
  rw [sum_range, hB, at1_of_lt b h1]
  refine congrArg Ideal.tanh (congrArg₂ (· + ·) (sum_congr rfl fun k _ => ?_) rfl)
  rw [hX, hK, at2_of_lt x h0 k.isLt, at2_of_lt K k.isLt h1]
  rfl

end Cert.Spec

end
-- ==== Proof.Blocks.lean ====
/-
  What the windows' blocks hold, point by point.

  The grid has 4 x 4 x 40 points; point t has coordinates (i, j, k) = (t / 160, t / 40 % 4, t % 40), the last one
  moving fastest. The index maps send it to block (i, k) of the padded x (blocks of 1024 x 512), block (k, j) of
  the padded K (512 x 1280), block (0, j) of the padded bias row (1 x 1280) and block (i, j) of the padded output
  (1024 x 1280). These relations are decided once over all 640 points. An entry of a block is the array's entry at
  "block index times block size plus the position inside the block", which we state through the arrays' zero
  extensions to natural coordinates, so that no bound has to be carried.
-/
import proofs.«121892_j45286135169691_2_alg».proof.Proof.Gen.KernelIdeal.Frame
import proofs.«121892_j45286135169691_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ)

/-- The block indices of the four windows at point t. -/
theorem index0 : ∀ t : Fin cfg0.N, win0_0.index t (0 : Fin 2) = t.val / 160 ∧ win0_0.index t (1 : Fin 2) = t.val % 40 :=
  (by decide +kernel : ∀ t : Fin grid0.N, _)
theorem index1 : ∀ t : Fin cfg0.N, win0_1.index t (0 : Fin 2) = t.val % 40 ∧ win0_1.index t (1 : Fin 2) = t.val / 40 % 4 :=
  (by decide +kernel : ∀ t : Fin grid0.N, _)
theorem index2 : ∀ t : Fin cfg0.N, win0_2.index t (0 : Fin 2) = 0 ∧ win0_2.index t (1 : Fin 2) = t.val / 40 % 4 :=
  (by decide +kernel : ∀ t : Fin grid0.N, _)
theorem index3 : ∀ t : Fin cfg0.N, win0_3.index t (0 : Fin 2) = t.val / 160 ∧ win0_3.index t (1 : Fin 2) = t.val / 40 % 4 :=
  (by decide +kernel : ∀ t : Fin grid0.N, _)

/-- The padded x, the padded K and the padded bias row as the region finds them. -/
abbrev Xp (c : Dev nD) : (⟨2, ![4096, 20480]⟩ : Shape).Idx → EReal := V m c main_v13
abbrev Kp (c : Dev nD) : (⟨2, ![20480, 5120]⟩ : Shape).Idx → EReal := V m c main_v14
abbrev Bp (c : Dev nD) : (⟨2, ![1, 5120]⟩ : Shape).Idx → EReal := V m c main_v11

/-- The x window's block at point t holds rows 1024 (t / 160) + p and columns 512 (t % 40) + l of the padded x. -/
theorem iblk0_apply (c : Dev nD) (t : Fin cfg0.N) (y : S1024x512.Idx) :
    (iblk m c 0 t : Vec Ideal S1024x512 .bf16) y
      = at2 (Xp m c) (1024 * (t.val / 160) + (y 0).val) (512 * (t.val % 40) + (y 1).val) := by
  have hi := index0 t
  unfold iblk
  rw [View.read_apply]
  show V m c main_v13 _ = _
  refine (at2_idx (Xp m c) _).symm.trans (congrArg₂ (at2 (Xp m c)) ?_ ?_)
  · show win0_0.index t (0 : Fin 2) * 1024 + 1 * (y 0).val = _; rw [hi.1]; omega
  · show win0_0.index t (1 : Fin 2) * 512 + 1 * (y 1).val = _; rw [hi.2]; omega

/-- The K window's block at point t holds rows 512 (t % 40) + l and columns 1280 (t / 40 % 4) + q of the padded K. -/
theorem iblk1_apply (c : Dev nD) (t : Fin cfg0.N) (y : S512x1280.Idx) :
    (iblk m c 1 t : Vec Ideal S512x1280 .bf16) y
      = at2 (Kp m c) (512 * (t.val % 40) + (y 0).val) (1280 * (t.val / 40 % 4) + (y 1).val) := by
  have hi := index1 t
  unfold iblk
  rw [View.read_apply]
  show V m c main_v14 _ = _
  refine (at2_idx (Kp m c) _).symm.trans (congrArg₂ (at2 (Kp m c)) ?_ ?_)
  · show win0_1.index t (0 : Fin 2) * 512 + 1 * (y 0).val = _; rw [hi.1]; omega
  · show win0_1.index t (1 : Fin 2) * 1280 + 1 * (y 1).val = _; rw [hi.2]; omega

/-- The bias window's block at point t holds columns 1280 (t / 40 % 4) + q of the padded bias row. -/
theorem iblk2_apply (c : Dev nD) (t : Fin cfg0.N) (y : S1x1280.Idx) :
    (iblk m c 2 t : Vec Ideal S1x1280 .f32) y = at2 (Bp m c) 0 (1280 * (t.val / 40 % 4) + (y 1).val) := by
  have hi := index2 t
  have hy : (y 0).val = 0 := by have := (y 0).isLt; have : (y 0).val < 1 := this; omega
  unfold iblk
  rw [View.read_apply]
  show V m c main_v11 _ = _
  refine (at2_idx (Bp m c) _).symm.trans (congrArg₂ (at2 (Bp m c)) ?_ ?_)
  · show win0_2.index t (0 : Fin 2) * 1 + 1 * (y 0).val = _; rw [hi.1]; omega
  · show win0_2.index t (1 : Fin 2) * 1280 + 1 * (y 1).val = _; rw [hi.2]; omega

/-- The three input blocks of point t, typed over their literal shapes. -/
abbrev xblk (c : Dev nD) (t : Fin cfg0.N) : Vec Ideal S1024x512 .bf16 := iblk m c 0 t
abbrev wblk (c : Dev nD) (t : Fin cfg0.N) : Vec Ideal S512x1280 .bf16 := iblk m c 1 t
abbrev bblk (c : Dev nD) (t : Fin cfg0.N) : Vec Ideal S1x1280 .f32 := iblk m c 2 t

/-- The product of the two blocks of point t at (p, q), over the padded arrays. -/
theorem dot_blocks (c : Dev nD) (t : Fin cfg0.N) (p : Fin 1024) (q : Fin 1280) :
    ∑ l : Fin 512, xblk m c t (ix2 p l) * wblk m c t (ix2 l q)
      = ∑ l ∈ Finset.range 512, at2 (Xp m c) (1024 * (t.val / 160) + p.val) (512 * (t.val % 40) + l)
          * at2 (Kp m c) (512 * (t.val % 40) + l) (1280 * (t.val / 40 % 4) + q.val) := by
  rw [Finset.sum_range]
  refine Finset.sum_congr rfl fun l _ => ?_
  exact congrArg₂ (· * ·) (iblk0_apply m c t (ix2 p l)) (iblk1_apply m c t (ix2 l q))

end Cert.KernelIdeal.Blocks

end
-- ==== Proof.Pieces.lean ====
/-
  What one run of the kernel body leaves behind, case by case, as values.

  The body runs at every grid point (i, j, k) in one of three ways: at k = 0 it first overwrites the accumulator
  with the zero block; at every k it replaces the accumulator by "accumulator + (x block) (K block)", the product
  taken into a zero matrix; at k = 39 it also stores tanh (accumulator + bias block) into the output block. The
  generated runs record these stores as lists of written pieces. Each store here covers its whole buffer through a
  rectangle at offset zero, so a list's canonical contents are its last store's value, and a load of a buffer that
  was just overwritten reads the value that was stored. Hence:

    case k = 0      accumulator := pay2 (zero block) x w
    case 0 < k < 39 accumulator := pay2 (previous accumulator) x w
    case k = 39     accumulator := pay2 (previous accumulator) x w,  output := pay3 (that accumulator) bias

  where pay2 a x w = a + x w and pay3 a b = tanh (a + b broadcast down the rows) are the body's arithmetic as pure
  terms. The statements hold for any float instance.
-/
import proofs.«121892_j45286135169691_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- The offsets of every load and store of the body: zero on both axes. -/
theorem hz : (![0, 0] : Fin 2 → Nat) = fun _ => 0 := funext fun a => by fin_cases a <;> rfl

/-- Between the first and the last k: the accumulator becomes the previous one plus the blocks' product. -/
theorem sout_B (c : Dev nD) (i : grid0.Coords) (arg3 : Memref sig .tc .vmem S1024x512 .bf16) (harg3 : arg3.IsWhole) (arg4 : Memref sig .tc .vmem S512x1280 .bf16) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : ¬cond0_1 i)
    (x0 : Vec F S1024x512 .bf16) (x1 : Vec F S512x1280 .bf16) (x2 : Vec F S1x1280 .f32) (xs0 : Vec F S1024x1280 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S1024x1280) hz, View.ld_unit_zero (S := S1024x512) hz, View.ld_unit_zero (S := S512x1280) hz]

/-- At k = 0: the accumulator is zeroed, read back, and becomes zero plus the blocks' product. -/
theorem sout_A (c : Dev nD) (i : grid0.Coords) (arg3 : Memref sig .tc .vmem S1024x512 .bf16) (harg3 : arg3.IsWhole) (arg4 : Memref sig .tc .vmem S512x1280 .bf16) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : cond0_0 i) (hc1 : ¬cond0_1 i)
    (x0 : Vec F S1024x512 .bf16) (x1 : Vec F S512x1280 .bf16) (x2 : Vec F S1x1280 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1280) hz, View.readCov_unit_zero (S := S1024x1280) _ hz]
  simp only [View.readAt_eq_ld, harg7.read_unread, harg3.read_unread, harg4.read_unread, harg5.read_unread,
    View.ld_unit_zero (S := S1024x1280) hz, View.ld_unit_zero (S := S1024x512) hz, View.ld_unit_zero (S := S512x1280) hz,
    View.ld_unit_zero (S := S1x1280) hz]

/-- At k = 39 the accumulator is updated as at every other k. -/
theorem sout_C (c : Dev nD) (i : grid0.Coords) (arg3 : Memref sig .tc .vmem S1024x512 .bf16) (harg3 : arg3.IsWhole) (arg4 : Memref sig .tc .vmem S512x1280 .bf16) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : cond0_1 i)
    (x0 : Vec F S1024x512 .bf16) (x1 : Vec F S512x1280 .bf16) (x2 : Vec F S1x1280 .f32) (xs0 : Vec F S1024x1280 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, harg5.read_unread,
    View.ld_unit_zero (S := S1024x1280) hz, View.ld_unit_zero (S := S1024x512) hz, View.ld_unit_zero (S := S512x1280) hz,
    View.ld_unit_zero (S := S1x1280) hz]

/-- At k = 39 the output block receives tanh of the updated accumulator plus the bias block. -/
theorem out_C (c : Dev nD) (i : grid0.Coords) (arg3 : Memref sig .tc .vmem S1024x512 .bf16) (harg3 : arg3.IsWhole) (arg4 : Memref sig .tc .vmem S512x1280 .bf16) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : cond0_1 i)
    (x0 : Vec F S1024x512 .bf16) (x1 : Vec F S512x1280 .bf16) (x2 : Vec F S1x1280 .f32) (xs0 : Vec F S1024x1280 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1280) _ hz]
  simp only [View.readAt_eq_ld, harg7.read_unread, harg3.read_unread, harg4.read_unread, harg5.read_unread,
    View.ld_unit_zero (S := S1024x1280) hz, View.ld_unit_zero (S := S1024x512) hz, View.ld_unit_zero (S := S512x1280) hz,
    View.ld_unit_zero (S := S1x1280) hz]

end Cert.KernelIdeal.Pieces

end
-- ==== Proof.Payload.lean ====
/-
  The body's arithmetic read at one entry, on the extended reals.

  At row p and column q of a 1024 x 1280 block:
    * the zero block is 0;
    * pay2 a x w = a + x w, the product taken into a zero matrix, is a(p, q) plus the sum over l < 512 of
      x(p, l) * w(l, q): the product's contraction index is its one coordinate, and its operand indices at (p, q)
      and l are (p, l) and (l, q);
    * pay3 a b = tanh (a + b), b a single row copied down the rows, is tanh (a(p, q) + b(0, q)).
  The shape casts in the payloads are to the same shape and change nothing.
-/
import proofs.«121892_j45286135169691_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- The zero block. -/
theorem pay1_apply (y : S1024x1280.Idx) : k0_pay1 (F := Ideal) y = 0 := by
  unfold k0_pay1
  simp only [shapeCast_self]
  exact Ideal.ofBits_zero_f32

/-- The product's operand indices at output index j and contraction index q, coordinate by coordinate. -/
theorem lhs0 (j : S1024x1280.Idx) (q : dot_S1024x512_S512x1280_S1024x1280_1_0_0_1_n_n.contr.Idx) : (dot_S1024x512_S512x1280_S1024x1280_1_0_0_1_n_n.lhsIdx j q 0).val = (j 0).val := by
  unfold DotDims.lhsIdx
  rw [dif_neg (show ¬(0 : Fin S1024x512.rank) ∈ dot_S1024x512_S512x1280_S1024x1280_1_0_0_1_n_n.lhsBatch by decide), dif_pos (show (0 : Fin S1024x512.rank) ∈ dot_S1024x512_S512x1280_S1024x1280_1_0_0_1_n_n.lhsNonContracting by decide)]
  rfl
theorem lhs1 (j : S1024x1280.Idx) (q : dot_S1024x512_S512x1280_S1024x1280_1_0_0_1_n_n.contr.Idx) : (dot_S1024x512_S512x1280_S1024x1280_1_0_0_1_n_n.lhsIdx j q 1).val = (q ⟨0, by decide⟩).val :=
  dot_S1024x512_S512x1280_S1024x1280_1_0_0_1_n_n.lhsIdx_val_of_single rfl j q
theorem rhs0 (j : S1024x1280.Idx) (q : dot_S1024x512_S512x1280_S1024x1280_1_0_0_1_n_n.contr.Idx) : (dot_S1024x512_S512x1280_S1024x1280_1_0_0_1_n_n.rhsIdx j q 0).val = (q ⟨0, by decide⟩).val :=
  dot_S1024x512_S512x1280_S1024x1280_1_0_0_1_n_n.rhsIdx_val_of_single rfl j q
theorem rhs1 (j : S1024x1280.Idx) (q : dot_S1024x512_S512x1280_S1024x1280_1_0_0_1_n_n.contr.Idx) : (dot_S1024x512_S512x1280_S1024x1280_1_0_0_1_n_n.rhsIdx j q 1).val = (j 1).val := by
  unfold DotDims.rhsIdx
  rw [dif_neg (show ¬(1 : Fin S512x1280.rank) ∈ dot_S1024x512_S512x1280_S1024x1280_1_0_0_1_n_n.rhsBatch by decide), dif_pos (show (1 : Fin S512x1280.rank) ∈ dot_S1024x512_S512x1280_S1024x1280_1_0_0_1_n_n.rhsNonContracting by decide)]
  rfl

/-- The accumulator update at (p, q). -/
theorem pay2_apply (a : Vec Ideal S1024x1280 .f32) (x : Vec Ideal S1024x512 .bf16) (w : Vec Ideal S512x1280 .bf16)
    (p : Fin 1024) (q : Fin 1280) :
    k0_pay2 a x w (ix2 p q) = a (ix2 p q) + ∑ l : Fin 512, x (ix2 p l) * w (ix2 l q) := by
  unfold k0_pay2
  simp only [shapeCast_self]
  show a (ix2 p q) + FloatOps.matmul (F := Ideal) dot_S1024x512_S512x1280_S1024x1280_1_0_0_1_n_n none x w (constant (F := Ideal) S1024x1280 .f32 0x00000000#32) (ix2 p q) = _
  rw [Ideal.matmul_constant_zero_apply, ← Equiv.sum_comp (contrEquiv1 dot_S1024x512_S512x1280_S1024x1280_1_0_0_1_n_n 512 rfl rfl).symm]
  refine congrArg (a (ix2 p q) + ·) (Finset.sum_congr rfl fun l _ => ?_)
  have hl := contrEquiv1_symm_val dot_S1024x512_S512x1280_S1024x1280_1_0_0_1_n_n 512 rfl rfl l
  have el : dot_S1024x512_S512x1280_S1024x1280_1_0_0_1_n_n.lhsIdx (ix2 p q) ((contrEquiv1 dot_S1024x512_S512x1280_S1024x1280_1_0_0_1_n_n 512 rfl rfl).symm l) = ix2 p l := funext fun ax => Fin.ext (by
    match ax with
    | ⟨0, _⟩ => exact lhs0 _ _
    | ⟨1, _⟩ => exact (lhs1 _ _).trans hl)
  have er : dot_S1024x512_S512x1280_S1024x1280_1_0_0_1_n_n.rhsIdx (ix2 p q) ((contrEquiv1 dot_S1024x512_S512x1280_S1024x1280_1_0_0_1_n_n 512 rfl rfl).symm l) = ix2 l q := funext fun ax => Fin.ext (by
    match ax with
    | ⟨0, _⟩ => exact (rhs0 _ _).trans hl
    | ⟨1, _⟩ => exact rhs1 _ _)
  rw [el, er]

/-- The epilogue at (p, q). -/
theorem pay3_apply (a : Vec Ideal S1024x1280 .f32) (b : Vec Ideal S1x1280 .f32) (p : Fin 1024) (q : Fin 1280) :
    k0_pay3 a b (ix2 p q) = Ideal.tanh (a (ix2 p q) + b (ix2 (0 : Fin 1) q)) := by
  unfold k0_pay3
  simp only [shapeCast_self]
  show Ideal.tanh (a (ix2 p q) + broadcastTo S1024x1280 b broadcasts_S1x1280_S1024x1280 (ix2 p q)) = _
  rw [broadcastTo_1b_ab_apply]

end Cert.KernelIdeal.Payload

end
-- ==== Proof.Accum.lean ====
/-
  The accumulation over the grid's last axis.

  For fixed (i, j) the forty points (i, j, 0), ..., (i, j, 39) are consecutive, and the kernel's accumulator is
  carried through them: zeroed and given the first block's product at k = 0, increased by the k-th block's product
  at every later k. By induction on the point, after point (i, j, k) it holds, at (p, q), the sum of the first
  k + 1 blocks of 512 terms of the product at row 1024 i + p and column 1280 j + q of the padded arrays. At
  k = 39 all forty blocks are in, and the output block receives tanh of that sum plus the bias row's entry.
-/
import proofs.«121892_j45286135169691_2_alg».proof.Proof.Blocks
import proofs.«121892_j45286135169691_2_alg».proof.Proof.Pieces
import proofs.«121892_j45286135169691_2_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Spec Cert.KernelIdeal.Blocks

variable (m : (ℓ : Loc nD τ sig) → Buf (Elt Ideal) ℓ)

/-! ## The cases of the accumulation, as payloads of the point's blocks -/

/-- At k = 0 the accumulator ends at "zero block plus this point's product". -/
theorem snd_A (c : Dev nD) (t : Fin cfg0.N) (h0 : t.val % 40 = 0) (h1 : ¬t.val % 40 = 39) :
    (outsAt0 m c t.val t.isLt).2 = k0_pay2 (k0_pay1 (F := Ideal)) (xblk m c t) (wblk m c t) := by
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)

/-- At 0 < k < 39 it ends at "what the point before left, plus this point's product". -/
theorem snd_B (c : Dev nD) (t : Fin cfg0.N) (h0 : ¬t.val % 40 = 0) (h1 : ¬t.val % 40 = 39) :
    (outsAt0 m c t.val t.isLt).2
      = k0_pay2 (outsAt0 m c (t.val - 1) (Nat.lt_of_le_of_lt (Nat.sub_le _ _) t.isLt)).2 (xblk m c t) (wblk m c t) := by
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2

/-- At k = 39 likewise, -/
theorem snd_C (c : Dev nD) (t : Fin cfg0.N) (h0 : ¬t.val % 40 = 0) (h1 : t.val % 40 = 39) :
    (outsAt0 m c t.val t.isLt).2
      = k0_pay2 (outsAt0 m c (t.val - 1) (Nat.lt_of_le_of_lt (Nat.sub_le _ _) t.isLt)).2 (xblk m c t) (wblk m c t) := by
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2

/-- and the output block receives tanh of that accumulator plus the bias block. -/
theorem fst_C (c : Dev nD) (t : Fin cfg0.N) (h0 : ¬t.val % 40 = 0) (h1 : t.val % 40 = 39) :
    (outsAt0 m c t.val t.isLt).1
      = k0_pay3 (k0_pay2 (outsAt0 m c (t.val - 1) (Nat.lt_of_le_of_lt (Nat.sub_le _ _) t.isLt)).2 (xblk m c t) (wblk m c t)) (bblk m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2

/-! ## The accumulator after each point -/

/-- After point n = (i, j, k) the accumulator holds, at (p, q), the first k + 1 blocks of the product's sum at row
    1024 i + p and column 1280 j + q of the padded arrays. -/
def partialSum (c : Dev nD) (n : ℕ) : Vec Ideal S1024x1280 .f32 := fun y =>
  acc (Xp m c) (Kp m c) (1024 * (n / 160) + (y 0).val) (1280 * (n / 40 % 4) + (y 1).val) (n % 40 + 1)

/-- At k = 0: zero plus the first block's product is the sum of one block. -/
theorem first_step (c : Dev nD) (t : Fin cfg0.N) (h0 : t.val % 40 = 0) :
    k0_pay2 (k0_pay1 (F := Ideal)) (xblk m c t) (wblk m c t) = partialSum m c t.val := by
  funext y
  obtain ⟨p, q, rfl⟩ : ∃ (p : Fin 1024) (q : Fin 1280), y = ix2 p q := ⟨y 0, y 1, eq_ix2 y⟩
  refine (Payload.pay2_apply (k0_pay1 (F := Ideal)) (xblk m c t) (wblk m c t) p q).trans ?_
  rw [Payload.pay1_apply, zero_add, dot_blocks]
  show _ = acc (Xp m c) (Kp m c) (1024 * (t.val / 160) + p.val) (1280 * (t.val / 40 % 4) + q.val) (t.val % 40 + 1)
  rw [h0, acc_one]

/-- At k > 0: the point before is in the same row and column block and one step behind, so adding this block's
    product to its sum gives the sum of one block more. -/
theorem next_step (c : Dev nD) (t : Fin cfg0.N) (h0 : ¬t.val % 40 = 0) :
    k0_pay2 (partialSum m c (t.val - 1)) (xblk m c t) (wblk m c t) = partialSum m c t.val := by
  funext y
  obtain ⟨p, q, rfl⟩ : ∃ (p : Fin 1024) (q : Fin 1280), y = ix2 p q := ⟨y 0, y 1, eq_ix2 y⟩
  refine (Payload.pay2_apply (partialSum m c (t.val - 1)) (xblk m c t) (wblk m c t) p q).trans ?_
  rw [dot_blocks]
  show acc (Xp m c) (Kp m c) (1024 * ((t.val - 1) / 160) + p.val) (1280 * ((t.val - 1) / 40 % 4) + q.val) ((t.val - 1) % 40 + 1) + _
    = acc (Xp m c) (Kp m c) (1024 * (t.val / 160) + p.val) (1280 * (t.val / 40 % 4) + q.val) (t.val % 40 + 1)
  have e1 : (t.val - 1) / 160 = t.val / 160 := by omega
  have e2 : (t.val - 1) / 40 % 4 = t.val / 40 % 4 := by omega
  have e3 : (t.val - 1) % 40 + 1 = t.val % 40 := by omega
  rw [e1, e2, e3, acc_succ]

/-- So the accumulator after point n is the partial sum, for every n: by induction on the point, through the three
    cases. -/
theorem scratch_eq (c : Dev nD) : ∀ (n : ℕ) (h : n < cfg0.N), (outsAt0 m c n h).2 = partialSum m c n := by
  intro n
  induction n with
  | zero =>
    intro h
    exact (snd_A m c ⟨0, h⟩ rfl (show ¬(0 : ℕ) % 40 = 39 by decide)).trans (first_step m c ⟨0, h⟩ rfl)
  | succ n ih =>
    intro h
    by_cases h0 : (n + 1) % 40 = 0
    · have h1 : ¬(n + 1) % 40 = 39 := by omega
      exact (snd_A m c ⟨n + 1, h⟩ h0 h1).trans (first_step m c ⟨n + 1, h⟩ h0)
    · by_cases h1 : (n + 1) % 40 = 39
      · refine (snd_C m c ⟨n + 1, h⟩ h0 h1).trans ?_
        show k0_pay2 (outsAt0 m c n _).2 _ _ = _
        rw [ih]
        exact next_step m c ⟨n + 1, h⟩ h0
      · refine (snd_B m c ⟨n + 1, h⟩ h0 h1).trans ?_
        show k0_pay2 (outsAt0 m c n _).2 _ _ = _
        rw [ih]
        exact next_step m c ⟨n + 1, h⟩ h0

/-- At k = 39 the output block holds, at (p, q), the kernel's blockwise value at row 1024 i + p and column
    1280 j + q of the padded arrays: all 40 blocks are in, and the bias block's entry is the bias row's. -/
theorem out_eq (c : Dev nD) (t : Fin cfg0.N) (h1 : t.val % 40 = 39) (p : Fin 1024) (q : Fin 1280) :
    (outsAt0 m c t.val t.isLt).1 (ix2 p q)
      = blockwise (Xp m c) (Kp m c) (Bp m c) (1024 * (t.val / 160) + p.val) (1280 * (t.val / 40 % 4) + q.val) := by
  have h0 : ¬t.val % 40 = 0 := by omega
  rw [fst_C m c t h0 h1, scratch_eq m c (t.val - 1) _, next_step m c t h0]
  refine (Payload.pay3_apply (partialSum m c t.val) (bblk m c t) p q).trans ?_
  rw [show bblk m c t (ix2 (0 : Fin 1) q) = at2 (Bp m c) 0 (1280 * (t.val / 40 % 4) + q.val) from
    iblk2_apply m c t (ix2 (0 : Fin 1) q)]
  show Ideal.tanh (acc (Xp m c) (Kp m c) (1024 * (t.val / 160) + p.val) (1280 * (t.val / 40 % 4) + q.val) (t.val % 40 + 1)
      + at2 (Bp m c) 0 (1280 * (t.val / 40 % 4) + q.val)) = _
  rw [h1]
  rfl

end Cert.KernelIdeal.Accum

end
-- ==== Proof.Padding.lean ====
/-
  The host operations in front of the region do not change the arrays' zero extensions.

  Before the region the program pads x with 480 zero columns, the dense matrix K with 480 zero rows and 120 zero
  columns, the bias vector with 120 zeros (then reshapes it to one row), and converts x and K to bf16, which on the
  extended reals is the identity. Read through its zero extension to all natural coordinates, a matrix padded with
  zeros on the high side is the matrix itself: inside the matrix the padding reads the matrix, in the padding it
  reads the padding value 0, and outside both read 0. The padding value is the integer 0 converted to a float.
-/
import proofs.«121892_j45286135169691_2_alg».proof.Proof.Spec
import Idealize.ShloMosaic.Lib.KernelVsHost
import Idealize.ShloMosaic.Lib.Pipeline.Value

noncomputable section

namespace Cert.Spec

open Idealize.ShloMosaic Idealize.ShloMosaic.ValueIdx

/-- A matrix padded with the value 0 on the high side of both axes has the matrix's zero extension. -/
theorem at2_pad {R C R' C' : ℕ} (hi : Fin 2 → ℕ) (x : (⟨2, ![R, C]⟩ : Shape).Idx → EReal) {u : Shape} (v : u.Idx → EReal)
    (hv : ∀ i, v i = 0) (h : (⟨2, ![R, C]⟩ : Shape).Pads ![0, 0] hi ![0, 0] ⟨2, ![R', C']⟩) (hu : 0 < u.numel)
    (hR : R ≤ R') (hC : C ≤ C') (r k : ℕ) :
    at2 (pad ⟨2, ![R', C']⟩ ![0, 0] hi ![0, 0] x v h hu) r k = at2 x r k := by
  by_cases hr : r < R'
  · by_cases hk : k < C'
    · rw [at2_of_lt _ hr hk]
      by_cases hin : r < R ∧ k < C
      · rw [at2_of_lt x hin.1 hin.2]
        refine pad_apply_of_inside ![0, 0] hi ![0, 0] x v h hu _ (ix2 ⟨r, hin.1⟩ ⟨k, hin.2⟩) fun a => ?_
        match a with
        | ⟨0, _⟩ => show r = 0 + r * (0 + 1); omega
        | ⟨1, _⟩ => show k = 0 + k * (0 + 1); omega
      · rw [show at2 x r k = 0 from dif_neg hin]
        rcases not_and_or.mp hin with h' | h'
        · rw [pad_apply_of_not_inside ![0, 0] hi ![0, 0] x v h hu _ (0 : Fin 2) (by
            intro hh
            have h3 : (r - 0) / (0 + 1) < R := hh.2.2
            omega), hv]
        · rw [pad_apply_of_not_inside ![0, 0] hi ![0, 0] x v h hu _ (1 : Fin 2) (by
            intro hh
            have h3 : (k - 0) / (0 + 1) < C := hh.2.2
            omega), hv]
    · rw [at2_of_col_ge _ (Nat.not_lt.mp hk), at2_of_col_ge x (le_trans hC (Nat.not_lt.mp hk))]
  · rw [at2_of_row_ge _ (Nat.not_lt.mp hr), at2_of_row_ge x (le_trans hR (Nat.not_lt.mp hr))]

/-- A vector padded with the value 0 on the high side has the vector's zero extension. -/
theorem at1_pad {C C' : ℕ} (hi : Fin 1 → ℕ) (x : (⟨1, ![C]⟩ : Shape).Idx → EReal) {u : Shape} (v : u.Idx → EReal)
    (hv : ∀ i, v i = 0) (h : (⟨1, ![C]⟩ : Shape).Pads ![0] hi ![0] ⟨1, ![C']⟩) (hu : 0 < u.numel)
    (hC : C ≤ C') (k : ℕ) :
    at1 (pad ⟨1, ![C']⟩ ![0] hi ![0] x v h hu) k = at1 x k := by
  by_cases hk : k < C'
  · rw [at1_of_lt _ hk]
    by_cases hin : k < C
    · rw [at1_of_lt x hin]
      refine pad_apply_of_inside ![0] hi ![0] x v h hu _ (ix1 ⟨k, hin⟩) fun a => ?_
      match a with
      | ⟨0, _⟩ => show k = 0 + k * (0 + 1); omega
    · rw [at1_of_ge x (Nat.not_lt.mp hin),
        pad_apply_of_not_inside ![0] hi ![0] x v h hu _ (0 : Fin 1) (by
          intro hh
          have h3 : (k - 0) / (0 + 1) < C := hh.2.2
          omega), hv]
  · rw [at1_of_ge _ (Nat.not_lt.mp hk), at1_of_ge x (le_trans hC (Nat.not_lt.mp hk))]

/-- A vector reshaped to a one-row matrix: row 0 of the matrix's zero extension is the vector's. -/
theorem at2_row {C : ℕ} (x : (⟨1, ![C]⟩ : Shape).Idx → EReal) (h : (⟨1, ![C]⟩ : Shape).ShapeCasts ⟨2, ![1, C]⟩) (k : ℕ) :
    at2 (shapeCast ⟨2, ![1, C]⟩ x h) 0 k = at1 x k := by
  by_cases hk : k < C
  · rw [at2_of_lt _ Nat.one_pos hk, at1_of_lt x hk]
    refine (shapeCast_addUnit_apply ![C] x h _).trans (congrArg x (funext fun a => ?_))
    match a with
    | ⟨0, _⟩ => rfl
  · rw [at2_of_col_ge _ (Nat.not_lt.mp hk), at1_of_ge x (Nat.not_lt.mp hk)]

/-- The integer zero converted to a float, as the one entry of a rank-0 array, is 0. -/
theorem padValue_eq_zero {s : Shape} (i : s.Idx) :
    (sitofp (F := Ideal) .f32 (constantI s 32 0#32) : s.Idx → EReal) i = 0 :=
  sitofp_zero (φ := .f32)

end Cert.Spec

end
-- ==== Proof.Final.lean ====
/-
  From the blocks to the program's result.

  The output window's block (i, j) is written back once, at the point (i, j, 39), when it holds the kernel's
  blockwise value at its 1024 x 1280 entries; the sixteen blocks tile the padded 4096 x 5120 output, so after the
  region that array holds the blockwise value at every entry. The line after the region keeps its first 5000 columns.
  In front of the region the arrays the windows read are x, the dense matrix and the bias padded with zeros (and
  converted to bf16, reshaped to a row), whose zero extensions are those of x, the dense matrix and the bias; so
  the blockwise value is tanh (x K + bias) by the specification's algebra. The dense matrix is taken as the first
  stretch of host operations leaves it, and is never opened; the remaining stretches are read on top of it.
-/
import proofs.«121892_j45286135169691_2_alg».proof.Proof.Accum
import proofs.«121892_j45286135169691_2_alg».proof.Proof.Padding
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec Cert.KernelIdeal.Blocks Cert.KernelIdeal.Accum

variable (m : (ℓ : Loc nD τ sig) → Buf (Elt Ideal) ℓ) (ρ : Dev nD → PrngReg)

/-- The padded 4096 x 5120 output: the kernel's blockwise value at every entry. -/
def padded (c : Dev nD) : (⟨2, ![4096, 5120]⟩ : Shape).Idx → EReal := fun i =>
  blockwise (Xp m c) (Kp m c) (Bp m c) (i 0).val (i 1).val

/-- What a point with k = 39 writes back is its block of the padded output. -/
theorem flushed_eq (c : Dev nD) (t : Fin cfg0.N) (hf : (cfg0.win 3).flush t = true) :
    (dats m 0 c).flushed 3 t = ((cfg0.win 3).blk t).view.read (Elt Ideal) (padded m c) := by
  have h39 : t.val % 40 = 39 := (flush0_3 t).mp hf
  have hi := index3 t
  show (cfg0.win 3).cut (grid0.coords t) ((dats m 0 c).after 3 t) = _
  rw [after0_3]
  funext y
  show (outsAt0 m c t.val t.isLt).1 y = padded m c (((cfg0.win 3).blk t).view.emb y)
  have ey : (y : S1024x1280.Idx) = ix2 (y 0) (y 1) := eq_ix2 (n0 := 1024) (n1 := 1280) y
  have e := out_eq m c t h39 (y 0) (y 1)
  refine (congrArg (outsAt0 m c t.val t.isLt).1 ey).trans (e.trans ?_)
  unfold padded
  refine congrArg₂ (blockwise (Xp m c) (Kp m c) (Bp m c)) ?_ ?_
  · show _ = win0_3.index t (0 : Fin 2) * 1024 + 1 * (y 0).val; rw [hi.1]; omega
  · show _ = win0_3.index t (1 : Fin 2) * 1280 + 1 * (y 1).val; rw [hi.2]; omega

/-- An entry lies in point t's block of the padded output iff each coordinate lies in the block's range. -/
theorem mem_blk (t : Fin cfg0.N) (i : S4096x5120.Idx) :
    i ∈ ((cfg0.win 3).blk t).view.set ↔ ∀ a : Fin 2, win0_3.index t a * S1024x1280.size a ≤ (i a).val
      ∧ (i a).val < win0_3.index t a * S1024x1280.size a + S1024x1280.size a := by
  show i ∈ ((View.whole main_v15).slice (win0_3.rect t)).set ↔ _
  rw [View.set_slice_whole, Rect.mem_set_unit]
  exact Iff.rfl

/-- Every entry of the padded output is written back by some point: entry (r, u) by (r / 1024, u / 1280, 39). -/
theorem cover (i : S4096x5120.Idx) :
    ∃ t : Fin cfg0.N, (cfg0.win 3).flush t = true ∧ i ∈ ((cfg0.win 3).blk t).view.set := by
  have h0 : (i 0).val < 4096 := idx2_lt0 i
  have h1 : (i 1).val < 5120 := idx2_lt1 i
  have hN : cfg0.N = 640 := N_0
  obtain ⟨t, ht⟩ : ∃ t : Fin cfg0.N, t.val = 160 * ((i 0).val / 1024) + 40 * ((i 1).val / 1280) + 39 :=
    ⟨⟨160 * ((i 0).val / 1024) + 40 * ((i 1).val / 1280) + 39, by rw [hN]; omega⟩, rfl⟩
  have hi := index3 t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [hi.1]; omega
  | ⟨1, _⟩ =>
    show win0_3.index t (1 : Fin 2) * 1280 ≤ (i 1).val ∧ (i 1).val < win0_3.index t (1 : Fin 2) * 1280 + 1280
    rw [hi.2]; omega

/-- So after the region the padded output array holds the blockwise value everywhere. -/
theorem final (c : Dev nD) : (dats m 0 c).arrAt 3 cfg0.N = padded m c :=
  (dats m 0 c).arrAt_eq_of_cover 3 (padded m c) (flushed_eq m c) cover

/-- Evaluating a list of host operations in two parts. -/
theorem after_append {τ : Topo} {sig : RefSig} {Val : EltTy → Type} (ops₁ ops₂ : List (HloOp τ sig Val))
    (V : Valuation τ sig Val) : StableHlo.after (ops₁ ++ ops₂) V = StableHlo.after ops₂ (StableHlo.after ops₁ V) := by
  induction ops₁ generalizing V with
  | nil => rfl
  | cons op ops ih => exact ih _

/-- The buffers after the first stretch of host operations, the one that builds the dense matrix. -/
def afterScatter (c : Dev nD) : Valuation τ sig (Elt Ideal) := StableHlo.after hostOps0 (fun b => m (c, b))

/-- The dense 20000 x 5000 matrix: the scattered sum of the kernel vector's entries at their (wrapped) flat
    positions, reshaped. Both programs build it by the same operations; it is never opened. -/
def dense (c : Dev nD) : (⟨2, ![20000, 5000]⟩ : Shape).Idx → EReal := afterScatter m c (Proc.devRef .tc main_v8)

/-- What the region finds is what the remaining six short stretches make of the buffers after the first. -/
theorem V0_split (c : Dev nD) :
    V0 m c = StableHlo.after (hostOps0_1 ++ (hostOps0_2 ++ (hostOps0_3 ++ (hostOps0_4 ++ (hostOps0_5 ++ (hostOps0_6 ++ []))))))
      (afterScatter m c) := by
  dsimp only [V0]
  simp only [List.flatten_cons, List.flatten_nil]
  exact after_append _ _ _

/-- The argument arrays as extended-real arrays of their literal shapes. -/
abbrev argX (c : Dev nD) : (⟨2, ![4096, 20000]⟩ : Shape).Idx → EReal := m ((c.tc : Thread nD τ).loc main_arg0)
abbrev argB (c : Dev nD) : (⟨1, ![5000]⟩ : Shape).Idx → EReal := m ((c.tc : Thread nD τ).loc main_arg2)

/-- The padded, converted x has x's zero extension. -/
theorem Xp_at (c : Dev nD) (r k : ℕ) : at2 (Xp m c) r k = at2 (argX m c) r k := by
  have e : Xp m c = truncf (F := Ideal) .bf16 (pad S4096x20480 ![0, 0] ![0, 480] ![0, 0] (argX m c)
      (sitofp (F := Ideal) .f32 (constantI S_ 32 0#32)) pads_S4096x20000_S4096x20480_000_04800 h_S_) bitsLt_bf16_f32 := by
    show V m c main_v13 = _
    dsimp only [V, V0]
    simp only [hostOps0, hostOps0_1, hostOps0_2, hostOps0_3, hostOps0_4, hostOps0_5, hostOps0_6, List.flatten_cons, List.flatten_nil, List.append_nil, List.cons_append, List.nil_append]
    after_results
    rfl
  rw [e]
  exact at2_pad ![0, 480] (argX m c) _ (fun i => padValue_eq_zero i) pads_S4096x20000_S4096x20480_000_04800 h_S_
    (by norm_num) (by norm_num) r k

/-- The integer constant the first stretch leaves for the padding of K is 0. -/
theorem padScalar_eq (c : Dev nD) :
    (afterScatter m c (Proc.devRef .tc main_c_1) : S_.Idx → BitVec 32) = constantI S_ 32 0#32 := by
  unfold afterScatter
  simp only [hostOps0]
  after_results <;> rfl

/-- The padded, converted K is the dense matrix padded and converted. -/
theorem Kp_eq (c : Dev nD) : Kp m c = truncf (F := Ideal) .bf16 (pad S20480x5120 ![0, 0] ![480, 120] ![0, 0] (dense m c)
      (sitofp (F := Ideal) .f32 (afterScatter m c (Proc.devRef .tc main_c_1) : S_.Idx → BitVec 32))
      pads_S20000x5000_S20480x5120_04800_01200 h_S_) bitsLt_bf16_f32 := by
  unfold dense
  show V0 m c (Proc.devRef .tc main_v14) = truncf (F := Ideal) .bf16 (pad S20480x5120 ![0, 0] ![480, 120] ![0, 0]
      (afterScatter m c (Proc.devRef .tc main_v8))
      (sitofp (F := Ideal) .f32 (afterScatter m c (Proc.devRef .tc main_c_1) : S_.Idx → BitVec 32))
      pads_S20000x5000_S20480x5120_04800_01200 h_S_) bitsLt_bf16_f32
  rw [V0_split]
  generalize afterScatter m c = W
  simp only [hostOps0_1, hostOps0_2, hostOps0_3, hostOps0_4, hostOps0_5, hostOps0_6, List.append_nil, List.cons_append, List.nil_append]
  after_results
  rfl

/-- The padded, converted K has the dense matrix's zero extension. -/
theorem Kp_at (c : Dev nD) (k u : ℕ) : at2 (Kp m c) k u = at2 (dense m c) k u := by
  rw [Kp_eq, padScalar_eq]
  exact at2_pad ![480, 120] (dense m c) _ (fun i => padValue_eq_zero i) pads_S20000x5000_S20480x5120_04800_01200 h_S_
    (by norm_num) (by norm_num) k u

/-- Row 0 of the padded bias row has the bias vector's zero extension. -/
theorem Bp_at (c : Dev nD) (u : ℕ) : at2 (Bp m c) 0 u = at1 (argB m c) u := by
  have e : Bp m c = shapeCast S1x5120 (pad S5120 ![0] ![120] ![0] (argB m c)
      (sitofp (F := Ideal) .f32 (constantI S_ 32 0#32)) pads_S5000_S5120_01200 h_S_) shapeCasts_S5120_S1x5120 := by
    show V m c main_v11 = _
    dsimp only [V, V0]
    simp only [hostOps0, hostOps0_1, hostOps0_2, hostOps0_3, hostOps0_4, hostOps0_5, hostOps0_6, List.flatten_cons, List.flatten_nil, List.append_nil, List.cons_append, List.nil_append]
    after_results
    rfl
  rw [e, at2_row]
  exact at1_pad ![120] (argB m c) _ (fun i => padValue_eq_zero i) pads_S5000_S5120_01200 h_S_ (by norm_num) u

/-! ## After the region: the slice, and the run -/

/-- After the region the valuation's array of window 3 is the padded output. -/
theorem arr3_eq (c : Dev nD) :
    Pipeline.withArrays (cfgs 0).spec c (V0 m c) (fun w => (dats m 0 c).arrAt w (cfgs 0).N) (Proc.tc.devRef main_v15)
      = padded m c :=
  (Pipeline.withArrays_arr spec0 launch0.win.arr_inj c (V0 m c) (fun w => (dats m 0 c).arrAt w cfg0.N) 3).trans (final m c)

/-- The padded output at explicit coordinates. -/
theorem padded_apply (c : Dev nD) (a : Fin 4096) (b : Fin 5120) :
    padded m c (ix2 a b) = blockwise (Xp m c) (Kp m c) (Bp m c) a.val b.val := rfl

/-- The cut to the first 5000 columns reads the array at the same coordinates. -/
theorem slice_read (X : (⟨2, ![4096, 5120]⟩ : Shape).Idx → EReal) (a : Fin 4096) (j : Fin 5000) (k : Fin 5120)
    (hk : k.val = 0 + j.val) :
    extractStridedSlice S4096x5000 ![0, 0] X slices_S4096x5120_S4096x5000_0_0 (ix2 a j) = X (ix2 a k) :=
  slice2_axis1_apply 0 X slices_S4096x5120_S4096x5000_0_0 a j k hk

/-- Entry (a, j) of the first 5000 columns of the padded output is tanh (x K + bias) there. -/
theorem slice_padded_apply (c : Dev nD) (a : Fin 4096) (j : Fin 5000) :
    extractStridedSlice S4096x5000 ![0, 0] (padded m c) slices_S4096x5120_S4096x5000_0_0 (ix2 a j)
      = result (argX m c) (dense m c) (argB m c) (ix2 a j) := by
  have hj : j.val < 5120 := Nat.lt_of_lt_of_le j.isLt (by norm_num)
  refine (slice_read (padded m c) a j ⟨j.val, hj⟩ (Nat.zero_add _).symm).trans ?_
  refine (padded_apply m c a ⟨j.val, hj⟩).trans ?_
  exact blockwise_eq_result (Xp m c) (Kp m c) (Bp m c) (argX m c) (dense m c) (argB m c)
    (Xp_at m c) (Kp_at m c) (Bp_at m c) (ix2 a j)

/-- The first 5000 columns of the padded output are tanh (x K + bias). -/
theorem slice_padded (c : Dev nD) :
    extractStridedSlice S4096x5000 ![0, 0] (padded m c) slices_S4096x5120_S4096x5000_0_0
      = result (argX m c) (dense m c) (argB m c) := by
  funext i
  have ei : i = ix2 (i 0) (i 1) := eq_ix2 (n0 := 4096) (n1 := 5000) i
  rw [ei]
  exact slice_padded_apply m c (i 0) (i 1)

/-- The program's result buffer after the lines that follow the region. -/
theorem tail_eq (c : Dev nD) :
    Pipeline.afterTail₀ cfgs (dats m) 0 (V0 m) [hostOps1] c main_v16 = result (argX m c) (dense m c) (argB m c) := by
  unfold Pipeline.afterTail₀
  simp only [List.flatten_cons, List.flatten_nil, List.append_nil]
  show StableHlo.after hostOps1 _ (Proc.devRef .tc main_v16) = _
  after_results
  rw [arr3_eq m c]
  exact slice_padded m c

/-- The kernel's run, read: every weakly fair execution terminates with the result array at tanh (x K + bias) of the
    argument arrays, and the arguments unchanged. -/
theorem run : θ_run defs (onTc (τ := τ) (main (F := Ideal))) ⟨m, fun _ => 0, ρ⟩ fun r => ∀ c : Dev nD,
      r.2.mem ((c.tc : Thread nD τ).loc main_v16) = result (argX m c) (dense m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Reference.lean ====
/-
  The reference computes the result.

  The reference's run ends, by its generated reading, at tanh applied to "dot product of x with the dense matrix,
  plus the bias vector broadcast over the rows". Read at an index i = (r, u), one operation at a time, that is
      tanh ( (sum over k < 20000 of x[r, k] * K[k, u]) + bias[u] ):
  the product's left and right operand indices at (i, k) are (r, k) and (k, u), and the two broadcasts of the bias
  compose to the index u.
-/
import proofs.«121892_j45286135169691_2_alg».proof.Proof.Gen.ReferenceIdeal.Read
import proofs.«121892_j45286135169691_2_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Spec

/-- The reference's last stage is the result, over its own dense matrix (the stage before the product). -/
theorem stage_eq_result (x0 : S4096x20000.Idx → EReal) (x1 : S1000000.Idx → EReal) (x2 : S5000.Idx → EReal)
    (x3 : S1000000.Idx → BitVec 32) :
    val_main_v13 (F := Ideal) x0 x1 x2 x3 = result x0 (val_main_v8 (F := Ideal) x1 x3) x2 := by
  funext i
  have el : ∀ k : Fin 20000, lidx_main_v9 i k = ix2 (i 0) k := fun k => funext fun a => Fin.ext (by
    match a with
    | ⟨0, _⟩ => rfl
    | ⟨1, _⟩ => rfl)
  have er : ∀ k : Fin 20000, ridx_main_v9 i k = ix2 k (i 1) := fun k => funext fun a => Fin.ext (by
    match a with
    | ⟨0, _⟩ => rfl
    | ⟨1, _⟩ => rfl)
  have eb : idx_main_v10 (idx_main_v11 i) = ix1 (i 1) := funext fun a => Fin.ext (by
    match a with
    | ⟨0, _⟩ => rfl)
  rw [val_main_v13_apply, val_main_v12_apply, val_main_v9_apply, val_main_v11_apply, val_main_v10_apply]
  simp only [el, er, eb, Ideal.hostUnary_tanh_def, Ideal.addf_def]
  rfl

end Cert.ReferenceIdeal.RefValue

end
-- ==== Proof.Bridge.lean ====
/-
  The two programs build the same dense matrix.

  Both programs start with the same operations on the same arguments: a zero vector of length 100000000, the
  index vector with its negative entries wrapped by adding 100000000, the scattered sum of the kernel vector into the
  zero vector at those positions, and the reshape to 20000 x 5000. So the kernel's dense matrix, read off the buffers
  after its first stretch of host operations, is the reference's stage in front of its product, at equal arguments:
  the two are one term, and the scattered sum itself is never evaluated.
-/
import proofs.«121892_j45286135169691_2_alg».proof.Proof.Final
import proofs.«121892_j45286135169691_2_alg».proof.Proof.Reference

noncomputable section

open Idealize.ShloMosaic Idealize.ShloMosaic.TcCoe Idealize.SL.Sem

namespace Cert.KernelIdeal.Bridge

open Cert.KernelIdeal Cert.KernelIdeal.Gen Cert.KernelIdeal.Final

variable (m : (ℓ : Loc nD τ sig) → Buf (Elt Ideal) ℓ)

/-- The kernel's dense matrix as one term of the argument arrays. -/
theorem dense_eq (c : Dev nD) :
    dense m c = shapeCast S20000x5000
      (Host.scatterAdd (F := Ideal) scatter_S100000000_S1000000x1_S1000000_n_0_0_1
        (broadcastInDim S100000000 ![] bcast_S_S100000000 (constant (F := Ideal) S_ .f32 0x00000000#32))
        (broadcastInDim S1000000x1 ![0] bcast_S1000000_S1000000x1_0
          (select
            (cmpi .slt (m ((c.tc : Thread nD τ).loc main_arg3)) (broadcastInDim S1000000 ![] bcast_S_S1000000 (constantI S_ 32 0#32)))
            (addi (m ((c.tc : Thread nD τ).loc main_arg3)) (broadcastInDim S1000000 ![] bcast_S_S1000000 (constantI S_ 32 100000000#32)))
            (m ((c.tc : Thread nD τ).loc main_arg3))))
        (m ((c.tc : Thread nD τ).loc main_arg1)))
      shapeCasts_S100000000_S20000x5000 := by
  unfold dense afterScatter
  simp only [hostOps0]
  after_results <;> rfl

/-- It is the reference's stage in front of its product, at the same kernel vector and index vector: the two
    programs' operations, shapes and dimension numbers are the same, so the two terms are one. -/
theorem dense_ref (c : Dev nD) :
    dense m c = Cert.ReferenceIdeal.Read.val_main_v8 (F := Ideal)
      (m ((c.tc : Thread nD τ).loc main_arg1)) (m ((c.tc : Thread nD τ).loc main_arg3)) :=
  (dense_eq m c).trans rfl

end Cert.KernelIdeal.Bridge

end
-- ==== Proof.lean ====
/-
  The proof of the claim.

  At row r and column u both programs compute tanh ( (sum over i < 20000 of x[r, i] * K[i, u]) + bias[u] ) on the
  extended reals, K the dense 20000 x 5000 matrix that both build from the kernel vector and the index vector by
  the same scattered sum. The reference takes the product in one piece. The kernel pads x, K and bias with zeros,
  converts x and K to bf16 (the identity on the extended reals), and takes the product on a 4 x 4 x 40 grid: for each
  row block and column block it accumulates forty products of 1024 x 512 by 512 x 1280 blocks, then adds the bias block
  and applies tanh; at the end it cuts the padding off. The two agree because a sum may be taken in consecutive blocks,
  because the padded terms have a zero factor, and because tanh is the same function on both sides; none of this
  needs the inputs to be finite, so the precondition is not used.

  The modules: Spec (the result as one function, and the algebra of the two arrangements), Padding (zero padding does
  not change an array read through its zero extension), Pieces and Payload (what one run of the kernel body leaves, and
  its arithmetic at an entry), Blocks (which entries the windows' blocks hold), Accum (the accumulator after every grid
  point, by induction), Final (from the blocks to the program's result: the kernel's run), Reference (the reference's
  run is the result), Bridge (the two dense matrices are one term). The three frames are the generated ones, the
  reference's being its generated run with the result dropped; the idealization rewrote nothing.
-/
import proofs.«121892_j45286135169691_2_alg».proof.Defs
import proofs.«121892_j45286135169691_2_alg».proof.Proof.Gen.Kernel
import proofs.«121892_j45286135169691_2_alg».proof.Proof.Gen.Kernel.Skeleton
import proofs.«121892_j45286135169691_2_alg».proof.Proof.Gen.Kernel.Launch
import proofs.«121892_j45286135169691_2_alg».proof.Proof.Gen.Kernel.Points
import proofs.«121892_j45286135169691_2_alg».proof.Proof.Gen.Kernel.Frame
import proofs.«121892_j45286135169691_2_alg».proof.Proof.Gen.KernelIdeal
import proofs.«121892_j45286135169691_2_alg».proof.Proof.Gen.KernelIdeal.Skeleton
import proofs.«121892_j45286135169691_2_alg».proof.Proof.Gen.KernelIdeal.Launch
import proofs.«121892_j45286135169691_2_alg».proof.Proof.Gen.KernelIdeal.Points
import proofs.«121892_j45286135169691_2_alg».proof.Proof.Gen.KernelIdeal.Frame
import proofs.«121892_j45286135169691_2_alg».proof.Proof.Gen.ReferenceIdeal
import proofs.«121892_j45286135169691_2_alg».proof.Proof.Gen.Pre_finite_inputs
import proofs.«121892_j45286135169691_2_alg».proof.Proof.Gen.ReferenceIdeal.Run
import proofs.«121892_j45286135169691_2_alg».proof.Proof.Gen.ReferenceIdeal.Read
import proofs.«121892_j45286135169691_2_alg».proof.Proof.Final
import proofs.«121892_j45286135169691_2_alg».proof.Proof.Reference
import proofs.«121892_j45286135169691_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with tanh (x K + bias): the kernel by its run read
    block by block, the reference by its run read operation by operation, over dense matrices that are one term. -/
theorem algebraic : Cert.algebraic_KernelIdeal_ReferenceIdeal := by
  intro m ρ m' ρ' _ hagree
  refine ⟨fun c => Cert.Spec.result (Cert.KernelIdeal.Final.argX m c) (Cert.KernelIdeal.Final.dense m c)
    (Cert.KernelIdeal.Final.argB m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.stage_eq_result,
    (hagree c).1, (hagree c).2.1, (hagree c).2.2.1, (hagree c).2.2.2]
  show _ = Cert.Spec.result (Cert.KernelIdeal.Final.argX m c) (Cert.KernelIdeal.Final.dense m c)
    (Cert.KernelIdeal.Final.argB m c)
  exact congrArg (fun K => Cert.Spec.result (Cert.KernelIdeal.Final.argX m c) K (Cert.KernelIdeal.Final.argB m c))
    (Cert.KernelIdeal.Bridge.dense_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
